-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x512 .f32) (main_arg8 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S512 .f32) (main_arg5 : FVec F S512x256 .f32) (main_arg6 : FVec F S512 .f32) (main_arg7 : FVec F S256x512 .f32) (main_arg8 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32x1024x256 .f32) (main_arg1 : FVec F S512x256 .f32) (main_arg2 : FVec F S512 .f32) (main_arg3 : FVec F S512x256 .f32) (main_arg4 : FVec F S512 .f32) (main_arg5 : FVec F S512x256 .f32) (main_arg6 : FVec F S512 .f32) (main_arg7 : FVec F S256x512 .f32) (main_arg8 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S32x1024x256 : Shape := ⟨3, ![32, 1024, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S1x512 : Shape := ⟨2, ![1, 512]⟩
abbrev S1x256 : Shape := ⟨2, ![1, 256]⟩
abbrev S1x1024x256 : Shape := ⟨3, ![1, 1024, 256]⟩
abbrev S1024x256 : Shape := ⟨2, ![1024, 256]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S32x1024x256, .f32⟩
  | .hbm, ⟨1, _⟩ => ⟨S512x256, .f32⟩
  | .hbm, ⟨2, _⟩ => ⟨S512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x256, .f32⟩
  | .hbm, ⟨13, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S512x256, .f32⟩
  | .local _ .vmem, ⟨3, _⟩ => ⟨S1x512, .f32⟩
  | .local _ .vmem, ⟨4, _⟩ => ⟨S512x256, .f32⟩
  | .local _ .vmem, ⟨5, _⟩ => ⟨S1x512, .f32⟩
  | .local _ .vmem, ⟨6, _⟩ => ⟨S512x256, .f32⟩
  | .local _ .vmem, ⟨7, _⟩ => ⟨S1x512, .f32⟩
  | .local _ .vmem, ⟨8, _⟩ => ⟨S256x512, .f32⟩
  | .local _ .vmem, ⟨9, _⟩ => ⟨S1x256, .f32⟩
  | .local _ .vmem, ⟨10, _⟩ => ⟨S1x1024x256, .f32⟩
  | .local _ .vmem, ⟨11, _⟩ => ⟨S1x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S512_S1x512 : S512.ShapeCasts S1x512
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x1024_S1024 : S1024x1024.Reduces [1] S1024
  shapeCasts_S1024_S1024x1 : S1024.ShapeCasts S1024x1
  broadcasts_S1024x1_S1024x1024 : S1024x1.Broadcasts S1024x1024
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1x1024x256 : S1024x256.ShapeCasts S1x1024x256
  dot_S1024x256_S512x256_S1024x512_1_1_0_0_n_n_wf : DotDims.WF S1024x256 S512x256 S1024x512 [1] [1] [0] [0] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S32x1024x256.size a
  hwx0_9 : ∀ i : grid0.Coords, EltTy.bits .f32 = 32 ∨ (Rect.block (s := S32x1024x256) S1x1024x256.size (cc0_transform_9 i) (hinb0_9 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S32x1024x512 : Shape := ⟨3, ![32, 1024, 512]⟩
abbrev S1x1x512 : Shape := ⟨3, ![1, 1, 512]⟩
abbrev S_ : Shape := ⟨0, ![]⟩
abbrev S32x1024x1024 : Shape := ⟨3, ![32, 1024, 1024]⟩
abbrev S32x1024 : Shape := ⟨2, ![32, 1024]⟩
abbrev S32x1024x1 : Shape := ⟨3, ![32, 1024, 1]⟩
abbrev S1x1x256 : Shape := ⟨3, ![1, 1, 256]⟩

abbrev nBuf : Space → Nat
  | .hbm => 53
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S512x256, .f32⟩
  | .hbm, ⟨2, _⟩ => ⟨S512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S32x1024x512, .f32⟩
  | .hbm, ⟨10, _⟩ => ⟨S1x1x512, .f32⟩
  | .hbm, ⟨11, _⟩ => ⟨S32x1024x512, .f32⟩
  | .hbm, ⟨12, _⟩ => ⟨S32x1024x512, .f32⟩
  | .hbm, ⟨13, _⟩ => ⟨S_, .f32⟩
  | .hbm, ⟨14, _⟩ => ⟨S32x1024x512, .f32⟩
  | .hbm, ⟨15, _⟩ => ⟨S32x1024x512, .f32⟩
  | .hbm, ⟨16, _⟩ => ⟨S32x1024x512, .f32⟩
  | .hbm, ⟨17, _⟩ => ⟨S1x1x512, .f32⟩
  | .hbm, ⟨18, _⟩ => ⟨S32x1024x512, .f32⟩
  | .hbm, ⟨19, _⟩ => ⟨S32x1024x512, .f32⟩
  | .hbm, ⟨20, _⟩ => ⟨S_, .f32⟩
  | .hbm, ⟨21, _⟩ => ⟨S32x1024x512, .f32⟩
  | .hbm, ⟨22, _⟩ => ⟨S32x1024x512, .f32⟩
  | .hbm, ⟨23, _⟩ => ⟨S32x1024x512, .f32⟩
  | .hbm, ⟨24, _⟩ => ⟨S1x1x512, .f32⟩
  | .hbm, ⟨25, _⟩ => ⟨S32x1024x512, .f32⟩
  | .hbm, ⟨26, _⟩ => ⟨S32x1024x512, .f32⟩
  | .hbm, ⟨27, _⟩ => ⟨S_, .f32⟩
  | .hbm, ⟨28, _⟩ => ⟨S32x1024x512, .f32⟩
  | .hbm, ⟨29, _⟩ => ⟨S32x1024x512, .f32⟩
  | .hbm, ⟨30, _⟩ => ⟨S32x1024x1024, .f32⟩
  | .hbm, ⟨31, _⟩ => ⟨S_, .f32⟩
  | .hbm, ⟨32, _⟩ => ⟨S32x1024, .f32⟩
  | .hbm, ⟨33, _⟩ => ⟨S_, .f32⟩
  | .hbm, ⟨34, _⟩ => ⟨S32x1024, .f32⟩
  | .hbm, ⟨35, _⟩ => ⟨S32x1024, .f32⟩
  | .hbm, ⟨36, _⟩ => ⟨S32x1024x1, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | .hbm, ⟨40, _⟩ => ⟨S_, .f32⟩
  | .hbm, ⟨41, _⟩ => ⟨S32x1024, .f32⟩
  | .hbm, ⟨42, _⟩ => ⟨S32x1024x1, .f32⟩
  | .hbm, ⟨43, _⟩ => ⟨S32x1024x1024, .f32⟩
  | .hbm, ⟨44, _⟩ => ⟨S32x1024x1024, .f32⟩
  | .hbm, ⟨45, _⟩ => ⟨S32x1024x512, .f32⟩
  | .hbm, ⟨46, _⟩ => ⟨S32x1024x256, .f32⟩
  | .hbm, ⟨47, _⟩ => ⟨S1x1x256, .f32⟩
  | .hbm, ⟨48, _⟩ => ⟨S32x1024x256, .f32⟩
  | .hbm, ⟨49, _⟩ => ⟨S32x1024x256, .f32⟩
  | .hbm, ⟨50, _⟩ => ⟨S_, .f32⟩
  | .hbm, ⟨51, _⟩ => ⟨S32x1024x256, .f32⟩
  | .hbm, ⟨52, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call3_cst : Ref sig .tc := ⟨.hbm, 50, rfl⟩
abbrev main_call3_v0 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  bcast_S_S32x1024x256 : S_.BroadcastsInDim S32x1024x256 (![] : Fin 0 → Fin S32x1024x256.rank)
  dot_S32x1024x256_S512x256_S32x1024x512_2_1_01_0_n_n_wf : DotDims.WF S32x1024x256 S512x256 S32x1024x512 [2] [1] [0, 1] [0] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]
  dot_S32x1024x512_S256x512_S32x1024x256_2_1_01_0_n_n_wf : DotDims.WF S32x1024x512 S256x512 S32x1024x256 [2] [1] [0, 1] [0] [] []

variable [Facts₀]

def dot_S32x1024x256_S512x256_S32x1024x512_2_1_01_0_n_n : DotDims S32x1024x256 S512x256 S32x1024x512 where
  lhsContracting := [2]
  rhsContracting := [1]
  lhsNonContracting := [0, 1]
  rhsNonContracting := [0]
  lhsBatch := []
  rhsBatch := []
  wf := dot_S32x1024x256_S512x256_S32x1024x512_2_1_01_0_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S32x1024x512_S256x512_S32x1024x256_2_1_01_0_n_n : DotDims S32x1024x512 S256x512 S32x1024x256 where
  lhsContracting := [2]
  rhsContracting := [1]
  lhsNonContracting := [0, 1]
  rhsNonContracting := [0]
  lhsBatch := []
  rhsBatch := []
  wf := dot_S32x1024x512_S256x512_S32x1024x256_2_1_01_0_n_n_wf

class Facts : Prop extends Facts₀ where

variable [Facts]
-- ==== Proof.Spec.lean ====
/-
  The function both programs compute, written once on the extended reals.

  One batch element of a single-head attention layer. From a block x of N token rows of width D:
  three projections V, K, Q of width H, each followed by a rectifier; the scores L = Q Kᵀ; a softmax of every
  row of L, stabilised by subtracting the row's maximum; the mixture of the rows of V by those weights; an
  output projection of width E followed by a rectifier.

  Every sum is a finite sum over the whole axis, in no particular order (addition of extended reals is
  commutative and associative), and the row maximum is a fold of `max` from −∞, again in no particular order.
  The zero and the −∞ are kept as the 32-bit words both programs spell them with, so that neither is ever
  evaluated on the way; the sums carry no starting value.
-/
import Idealize.ShloMosaic.PureOps.Ideal
import Idealize.ShloMosaic.Lib.ValueIdx

noncomputable section

open scoped BigOperators

namespace Cert.Spec

open Idealize.ShloMosaic

/-- The number 0 as both programs write it: the f32 word with every bit clear. -/
abbrev zeroW : EReal := Ideal.ofBits .f32 0x00000000#32

/-- −∞ as both programs write it: the f32 word of the negative infinity. -/
abbrev negInfW : EReal := Ideal.ofBits .f32 0xFF800000#32

variable {N D H E : Nat}

/-- A rectified projection: entry (n, j) is max (∑_d x(n,d) · W(j,d) + b(j), 0). The weight is stored
    with its output axis first, so the product contracts the second axis of both factors. -/
def proj (x : Fin N → Fin D → EReal) (W : Fin H → Fin D → EReal) (b : Fin H → EReal) (n : Fin N) (j : Fin H) : EReal :=
  max ((∑ d : Fin D, x n d * W j d) + b j) zeroW

/-- The scores: L(n, m) = ∑_j Q(n,j) · K(m,j). -/
def logits (Q K : Fin N → Fin H → EReal) (n m : Fin N) : EReal :=
  ∑ j : Fin H, Q n j * K m j

/-- The largest score of row n, as a fold of `max` from −∞ over the row. -/
def rowMax (L : Fin N → Fin N → EReal) (n : Fin N) : EReal :=
  (Finset.univ : Finset (Fin N)).fold max negInfW (fun m => L n m)

/-- The unnormalised softmax weight e^(L(n,m) − max(−∞, M(n))), for row maxima M. -/
def weight (L : Fin N → Fin N → EReal) (M : Fin N → EReal) (n m : Fin N) : EReal :=
  Ideal.exp (L n m - max negInfW (M n))

/-- The softmax weight: the unnormalised weight divided by the sum of its row. -/
def softmax (L : Fin N → Fin N → EReal) (M : Fin N → EReal) (n m : Fin N) : EReal :=
  Ideal.div (weight L M n m) (∑ m' : Fin N, weight L M n m')

/-- The mixture of the value rows: C(n, j) = ∑_m softmax(n,m) · V(m,j). -/
def context (V : Fin N → Fin H → EReal) (L : Fin N → Fin N → EReal) (M : Fin N → EReal) (n : Fin N) (j : Fin H) : EReal :=
  ∑ m : Fin N, softmax L M n m * V m j

/-- Everything after the scores and their row maxima: the softmax, the mixture, and the rectified output
    projection, entry (n, e) = max (∑_j C(n,j) · Wo(e,j) + bo(e), 0). -/
def tail (V : Fin N → Fin H → EReal) (L : Fin N → Fin N → EReal) (M : Fin N → EReal)
    (Wo : Fin E → Fin H → EReal) (bo : Fin E → EReal) (n : Fin N) (e : Fin E) : EReal :=
  max ((∑ j : Fin H, context V L M n j * Wo e j) + bo e) zeroW

/-- The whole layer on one block of tokens. -/
def attn (x : Fin N → Fin D → EReal) (Wv : Fin H → Fin D → EReal) (bv : Fin H → EReal)
    (Wk : Fin H → Fin D → EReal) (bk : Fin H → EReal) (Wq : Fin H → Fin D → EReal) (bq : Fin H → EReal)
    (Wo : Fin E → Fin H → EReal) (bo : Fin E → EReal) (n : Fin N) (e : Fin E) : EReal :=
  tail (proj x Wv bv) (logits (proj x Wq bq) (proj x Wk bk)) (rowMax (logits (proj x Wq bq) (proj x Wk bk))) Wo bo n e

end Cert.Spec

end
-- ==== Proof.SpecArray.lean ====
/-
  The layer on the whole batch, as one function of the nine argument arrays.

  The input h is [32, 1024, 256]: thirty-two independent blocks of 1024 token rows. The weights are shared by
  the blocks. Entry (β, n, e) of the result is the attention layer of `Cert.Spec.attn` applied to block β of h,
  read at row n and column e. The arrays are indexed by their coordinate triples, pairs and singletons.
-/
import proofs.«153976_j9517647527942_1_alg».proof.Proof.Spec

noncomputable section

namespace Cert.Spec

open Idealize.ShloMosaic Idealize.ShloMosaic.ValueIdx

/-- Entry (β, n, e) of the result: the layer on block β of the input. -/
def attnBatch (h : (⟨3, ![32, 1024, 256]⟩ : Shape).Idx → EReal)
    (Wv : (⟨2, ![512, 256]⟩ : Shape).Idx → EReal) (bv : (⟨1, ![512]⟩ : Shape).Idx → EReal)
    (Wk : (⟨2, ![512, 256]⟩ : Shape).Idx → EReal) (bk : (⟨1, ![512]⟩ : Shape).Idx → EReal)
    (Wq : (⟨2, ![512, 256]⟩ : Shape).Idx → EReal) (bq : (⟨1, ![512]⟩ : Shape).Idx → EReal)
    (Wo : (⟨2, ![256, 512]⟩ : Shape).Idx → EReal) (bo : (⟨1, ![256]⟩ : Shape).Idx → EReal)
    (β : Fin 32) (n : Fin 1024) (e : Fin 256) : EReal :=
  attn (fun n d => h (ix3 β n d)) (fun j d => Wv (ix2 j d)) (fun j => bv (ix1 j))
    (fun j d => Wk (ix2 j d)) (fun j => bk (ix1 j)) (fun j d => Wq (ix2 j d)) (fun j => bq (ix1 j))
    (fun e j => Wo (ix2 e j)) (fun e => bo (ix1 e)) n e

/-- The result array: at the index i it holds entry (i₀, i₁, i₂). -/
def attnArray (h : (⟨3, ![32, 1024, 256]⟩ : Shape).Idx → EReal)
    (Wv : (⟨2, ![512, 256]⟩ : Shape).Idx → EReal) (bv : (⟨1, ![512]⟩ : Shape).Idx → EReal)
    (Wk : (⟨2, ![512, 256]⟩ : Shape).Idx → EReal) (bk : (⟨1, ![512]⟩ : Shape).Idx → EReal)
    (Wq : (⟨2, ![512, 256]⟩ : Shape).Idx → EReal) (bq : (⟨1, ![512]⟩ : Shape).Idx → EReal)
    (Wo : (⟨2, ![256, 512]⟩ : Shape).Idx → EReal) (bo : (⟨1, ![256]⟩ : Shape).Idx → EReal) :
    (⟨3, ![32, 1024, 256]⟩ : Shape).Idx → EReal :=
  fun i => attnBatch h Wv bv Wk bk Wq bq Wo bo ⟨(i 0).val, (i 0).isLt⟩ ⟨(i 1).val, (i 1).isLt⟩ ⟨(i 2).val, (i 2).isLt⟩

/-- At an index written by its coordinates the array holds that entry. -/
theorem attnArray_ix3 (h : (⟨3, ![32, 1024, 256]⟩ : Shape).Idx → EReal)
    (Wv : (⟨2, ![512, 256]⟩ : Shape).Idx → EReal) (bv : (⟨1, ![512]⟩ : Shape).Idx → EReal)
    (Wk : (⟨2, ![512, 256]⟩ : Shape).Idx → EReal) (bk : (⟨1, ![512]⟩ : Shape).Idx → EReal)
    (Wq : (⟨2, ![512, 256]⟩ : Shape).Idx → EReal) (bq : (⟨1, ![512]⟩ : Shape).Idx → EReal)
    (Wo : (⟨2, ![256, 512]⟩ : Shape).Idx → EReal) (bo : (⟨1, ![256]⟩ : Shape).Idx → EReal)
    (β : Fin 32) (n : Fin 1024) (e : Fin 256) :
    attnArray h Wv bv Wk bk Wq bq Wo bo (ix3 β n e) = attnBatch h Wv bv Wk bk Wq bq Wo bo β n e := rfl

end Cert.Spec

end
-- ==== Proof.LibDotNT.lean ====
/-
  A matrix product whose right operand is stored transposed, read at one entry of its result on the extended reals.

  The left operand is [M, K] and the right operand is [N, K]; both are contracted on their second axis and there is
  no batch axis. Entry (p, q) of the product is the sum over k of lhs (p, k) · rhs (q, k). This holds for the vector
  unit's product into a zero accumulator (the zero word denotes 0, and 0 + s = s) and for the host's `dot_general`,
  for all extents M, K, N. A record of dimension numbers is determined by its six lists of axes (its remaining
  field is a proof), so the statements are about `DotDims.transposedRhs M K N` and apply to every record that lists
  the same axes.
-/
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat}

/-- The contraction index of the product is its one coordinate, k < K. -/
abbrev kEquiv (M K N : Nat) : (DotDims.transposedRhs M K N).contr.Idx ≃ Fin K :=
  contrEquiv1 (DotDims.transposedRhs M K N) K rfl rfl

/-- The left operand's row axis is the result's first axis: it reads the result entry's row. -/
theorem lhs_row (j : (⟨2, ![M, N]⟩ : Shape).Idx) (κ : (DotDims.transposedRhs M K N).contr.Idx) :
    ((DotDims.transposedRhs M K N).lhsIdx j κ 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column axis is the contracted one: it reads the contraction coordinate. -/
theorem lhs_col (j : (⟨2, ![M, N]⟩ : Shape).Idx) (k : Fin K) :
    ((DotDims.transposedRhs M K N).lhsIdx j ((kEquiv M K N).symm k) 1).val = k.val :=
  ((DotDims.transposedRhs M K N).lhsIdx_val_of_single rfl j _).trans
    (contrEquiv1_symm_val (DotDims.transposedRhs M K N) K rfl rfl k)

/-- The right operand's row axis is the result's second axis: it reads the result entry's column. -/
theorem rhs_row (j : (⟨2, ![M, N]⟩ : Shape).Idx) (κ : (DotDims.transposedRhs M K N).contr.Idx) :
    ((DotDims.transposedRhs M K N).rhsIdx j κ 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column axis is the contracted one. -/
theorem rhs_col (j : (⟨2, ![M, N]⟩ : Shape).Idx) (k : Fin K) :
    ((DotDims.transposedRhs M K N).rhsIdx j ((kEquiv M K N).symm k) 1).val = k.val :=
  ((DotDims.transposedRhs M K N).rhsIdx_val_of_single rfl j _).trans
    (contrEquiv1_symm_val (DotDims.transposedRhs M K N) K rfl rfl k)

/-- At result entry (p, q) and contraction coordinate k the left operand is read at (p, k) -/
theorem lhsIdx_nt (p : Fin M) (q : Fin N) (k : Fin K) :
    (DotDims.transposedRhs M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (q, k). -/
theorem rhsIdx_nt (p : Fin M) (q : Fin N) (k : Fin K) :
    (DotDims.transposedRhs M K N).rhsIdx (ix2 p q) ((kEquiv M K N).symm k) = ix2 q k :=
  funext fun a => Fin.ext (by
    match a with
    | ⟨0, _⟩ => exact rhs_row (ix2 p q) _
    | ⟨1, _⟩ => exact rhs_col (ix2 p q) k)

/-- The sum over the contraction index of the two operands' entries is the sum over k < K of lhs (p, k) · rhs (q, k). -/
theorem sum_contr {φ₁ φ₂ : FTy} (lhs : FVec Ideal ⟨2, ![M, K]⟩ φ₁) (rhs : FVec Ideal ⟨2, ![N, K]⟩ φ₂)
    (p : Fin M) (q : Fin N) :
    (∑ κ : (DotDims.transposedRhs M K N).contr.Idx,
        lhs ((DotDims.transposedRhs M K N).lhsIdx (ix2 p q) κ) * rhs ((DotDims.transposedRhs M K N).rhsIdx (ix2 p q) κ) : EReal)
      = ∑ k : Fin K, lhs (ix2 p k) * rhs (ix2 q k) := by
  rw [← Equiv.sum_comp (kEquiv M K N).symm]
  exact Finset.sum_congr rfl fun k _ =>
    congrArg₂ (fun a b => (lhs a * rhs b : EReal)) (lhsIdx_nt p q k) (rhsIdx_nt p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ k : Fin K, lhs (ix2 p k) * rhs (ix2 q k) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_contr lhs rhs p q

end Cert.LibDotNT

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KernelScores.lean ====
/-
  The kernel's three rectified projections, its scores and the scores' row maxima, read entry by entry on the
  extended reals.

  The kernel works on one block x of 1024 token rows of width 256, held as a [1, 1024, 256] array. From it, it forms
    • three rectified projections of width 512: each is the product of the block against a [512, 256] weight W stored
      with its output axis first, into a zero accumulator, plus a [1, 512] bias row b spread down the 1024 rows, then
      the maximum with 0;
    • the scores: the product of the query projection Q against the key projection K, both contracted on their width;
    • the maximum of every row of the scores, folded from −∞.
  On the extended reals every operation is exact and a change of number format is the identity, so each of these
  arrays, read at one entry, is a closed expression in the entries of the inputs:
    • a rectified projection at (n, j) is  max (∑_d x(0,n,d) · W(j,d) + b(0,j), 0)     (`proj_block`, `pay3_apply`);
    • the scores at (n, m) are  ∑_j Q(n,j) · K(m,j)                                     (`pay4_apply`);
    • the row maximum at n is the fold of max from −∞ over m of the scores at (n, m)    (`pay5_apply`).
  These are the specification's `proj`, `logits` and `rowMax`.

  An array is read at an entry one operation at a time. The entrywise operations (maximum, sum, change of format, splat
  of a constant) pass the entry through. A matrix product into a zero accumulator, with both operands contracted on
  their second axis, is at (p, q) the sum over k of left (p, k) · right (q, k). Dropping the block's unit axis reads
  (0, n, d); casting the bias row to its own shape changes nothing; spreading it over the rows reads (0, j). A reduction
  of a [1024, 1024] array along its second axis, at row n, runs over the entries (n, m), m < 1024.
-/
import proofs.«153976_j9517647527942_1_alg».proof.Proof.Gen.KernelIdeal.Skeleton
import proofs.«153976_j9517647527942_1_alg».proof.Proof.Spec
import proofs.«153976_j9517647527942_1_alg».proof.Proof.LibDotNT
import proofs.«153976_j9517647527942_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Scores

open Cert.KernelIdeal Cert.KernelIdeal.Gen Idealize.ShloMosaic Idealize.ShloMosaic.ValueIdx

/-- The product of a [1024, 256] array against a [512, 256] array, both contracted on their second axis, into a zero
    accumulator: entry (n, j) is the sum over d of left (n, d) · right (j, d). The kernel's record of dimension numbers
    lists the axes of a product with a transposed right operand. -/
theorem projDot_apply (lhs : FVec Ideal S1024x256 .bf16) (rhs : FVec Ideal S512x256 .bf16) (n : Fin 1024) (j : Fin 512) :
    matmul (F := Ideal) dot_S1024x256_S512x256_S1024x512_1_1_0_0_n_n none lhs rhs (constant S1024x512 .f32 0x00000000#32) (ix2 n j)
      = ∑ d : Fin 256, lhs (ix2 n d) * rhs (ix2 j d) :=
  Cert.LibDotNT.matmul_zero_apply none lhs rhs n j

/-- The product of two [1024, 512] arrays, both contracted on their second axis, into a zero accumulator: entry (n, m)
    is the sum over j of left (n, j) · right (m, j). -/
theorem scoresDot_apply (lhs rhs : FVec Ideal S1024x512 .bf16) (n m : Fin 1024) :
    matmul (F := Ideal) dot_S1024x512_S1024x512_S1024x1024_1_1_0_0_n_n none lhs rhs (constant S1024x1024 .f32 0x00000000#32) (ix2 n m)
      = ∑ j : Fin 512, lhs (ix2 n j) * rhs (ix2 m j) :=
  Cert.LibDotNT.matmul_zero_apply none lhs rhs n m

/-- The block with its unit leading axis dropped (and its format changed, which is the identity), read at (n, d), is
    the block at (0, n, d): the two row-major positions agree, (0 · 1024 + n) · 256 + d = n · 256 + d. -/
theorem pay2_apply (v0 : Vec Ideal S1x1024x256 .f32) (n : Fin 1024) (d : Fin 256) :
    k0_pay2 (F := Ideal) v0 (ix2 n d) = v0 (ix3 (0 : Fin 1) n d) :=
  shapeCast_1ab_ab_apply v0 shapeCasts_S1x1024x256_S1024x256 n d

/-- The bias row, cast to its own shape (which changes nothing) and spread down the 1024 rows, read at (n, j), is the
    bias at (0, j). -/
theorem biasRow_apply (b : Vec Ideal S1x512 .f32) (n : Fin 1024) (j : Fin 512) :
    broadcastTo S1024x512 (shapeCast S1x512 b shapeCasts_S1x512_S1x512) broadcasts_S1x512_S1024x512 (ix2 n j)
      = b (ix2 (0 : Fin 1) j) := by
  rw [shapeCast_self]
  exact broadcastTo_1b_ab_apply b broadcasts_S1x512_S1024x512 n j

/-- The index a reduction of a [1024, 1024] array along its second axis reads, at row n and position m of the reduced
    axis, is (n, m): the kept coordinate is the row, the inserted one the position. -/
theorem lift_row (n m : Fin 1024) :
    reduces_S1024x1024_S1024.lift (ix1 n) m = ix2 n m :=
  funext fun a => Fin.ext (by
    match a with
    | ⟨0, _⟩ => rfl
    | ⟨1, _⟩ => rfl)

/-- ONE RECTIFIED PROJECTION, for any weight w and bias b: the product of the block against w into a zero accumulator,
    plus the bias row spread down the rows, then the maximum with the splat of the zero word, read at (n, j), is
    max (∑_d x(0,n,d) · w(j,d) + b(0,j), 0). The kernel forms this array three times, with three weights and biases. -/
theorem proj_block (v0 : Vec Ideal S1x1024x256 .f32) (w : Vec Ideal S512x256 .f32) (b : Vec Ideal S1x512 .f32)
    (n : Fin 1024) (j : Fin 512) :
    maximumf (F := Ideal)
        (addf
          (matmul dot_S1024x256_S512x256_S1024x512_1_1_0_0_n_n none (k0_pay2 v0) (truncf .bf16 w bitsLt_bf16_f32)
            (constant S1024x512 .f32 0x00000000#32))
          (broadcastTo S1024x512 (shapeCast S1x512 b shapeCasts_S1x512_S1x512) broadcasts_S1x512_S1024x512))
        (broadcast S1024x512 (Scalar.ofBits .f32 0x00000000#32)) (ix2 n j)
      = Cert.Spec.proj (fun n d => v0 (ix3 (0 : Fin 1) n d)) (fun j d => w (ix2 j d)) (fun j => b (ix2 (0 : Fin 1) j)) n j := by
  -- the maximum and the sum act entry by entry, and the splat of the zero word reads that word at every entry
  refine (maximumf_apply _ _ (ix2 n j)).trans ?_
  refine (congrArg (fun s => max s _) (addf_apply _ _ (ix2 n j))).trans ?_
  -- the product's entry is a sum over d; the spread bias reads b (0, j)
  rw [projDot_apply, biasRow_apply]
  unfold Cert.Spec.proj
  -- in every term the weight's change of format is the identity, and the block without its unit axis reads x (0, n, d)
  exact congrArg (fun s => max (s + b (ix2 (0 : Fin 1) j)) _)
    (Finset.sum_congr rfl fun d _ => congrArg (· * w (ix2 j d)) (pay2_apply v0 n d))

/-- THE FIRST RECTIFIED PROJECTION (the rows the softmax later mixes), read at (n, j):
    max (∑_d x(0,n,d) · W(j,d) + b(0,j), 0), with W = v3 the [512, 256] weight and b = v10 the [1, 512] bias. It is the
    common pattern of `proj_block` followed by a change to a narrower format, which is the identity. -/
theorem pay3_apply (v0 : Vec Ideal S1x1024x256 .f32) (v3 : Vec Ideal S512x256 .f32) (v10 : Vec Ideal S1x512 .f32)
    (n : Fin 1024) (j : Fin 512) :
    k0_pay3 (F := Ideal) v0 v3 v10 (ix2 n j)
      = Cert.Spec.proj (fun n d => v0 (ix3 (0 : Fin 1) n d)) (fun j d => v3 (ix2 j d)) (fun j => v10 (ix2 (0 : Fin 1) j)) n j := by
  unfold k0_pay3
  refine (truncf_apply (ψ := .bf16) _ bitsLt_bf16_f32 (ix2 n j)).trans ?_
  exact proj_block v0 v3 v10 n j

/-- THE SCORES, read at (n, m): ∑_j Q(n,j) · K(m,j), where Q is the rectified projection of the block by the weight v7
    and the bias v24 (the queries) and K the one by v5 and v17 (the keys). The product's left operand is Q and its right
    operand K, both contracted on their second axis, the width 512, into a zero accumulator; each factor is the common
    pattern of `proj_block` under a change of format. -/
theorem pay4_apply (v0 : Vec Ideal S1x1024x256 .f32) (v5 v7 : Vec Ideal S512x256 .f32) (v17 v24 : Vec Ideal S1x512 .f32)
    (n m : Fin 1024) :
    k0_pay4 (F := Ideal) v0 v5 v7 v17 v24 (ix2 n m)
      = Cert.Spec.logits
          (Cert.Spec.proj (fun n d => v0 (ix3 (0 : Fin 1) n d)) (fun j d => v7 (ix2 j d)) (fun j => v24 (ix2 (0 : Fin 1) j)))
          (Cert.Spec.proj (fun n d => v0 (ix3 (0 : Fin 1) n d)) (fun j d => v5 (ix2 j d)) (fun j => v17 (ix2 (0 : Fin 1) j))) n m := by
  unfold k0_pay4
  -- the product's entry (n, m) is the sum over j of left (n, j) · right (m, j)
  refine (scoresDot_apply _ _ n m).trans ?_
  unfold Cert.Spec.logits
  -- term by term: the left factor is the query projection at (n, j), the right one the key projection at (m, j)
  refine Finset.sum_congr rfl fun j _ => ?_
  refine congrArg₂ (fun a b : EReal => a * b) ?_ ?_
  · refine (truncf_apply (ψ := .bf16) _ bitsLt_bf16_f32 (ix2 n j)).trans ?_
    exact proj_block v0 v7 v24 n j
  · refine (truncf_apply (ψ := .bf16) _ bitsLt_bf16_f32 (ix2 m j)).trans ?_
    exact proj_block v0 v5 v17 m j

/-- THE ROW MAXIMA, read at n: the fold of max, from the value of the word of −∞, over the 1024 positions m of the
    scores at (n, m). The scores stay an unopened array here; only the reduction along their second axis is read, and
    the entries it runs over at row n are (n, m). -/
theorem pay5_apply (v0 : Vec Ideal S1x1024x256 .f32) (v5 v7 : Vec Ideal S512x256 .f32) (v17 v24 : Vec Ideal S1x512 .f32)
    (n : Fin 1024) :
    k0_pay5 (F := Ideal) v0 v5 v7 v17 v24 (ix1 n)
      = Cert.Spec.rowMax (fun n m => k0_pay4 (F := Ideal) v0 v5 v7 v17 v24 (ix2 n m)) n := by
  unfold k0_pay5
  -- a maximum-reduction along one axis is the fold of max from the accumulator's value over that axis's coordinates
  refine (Ideal.multiReduction_maximumf_single (k0_pay4 (F := Ideal) v0 v5 v7 v17 v24) 0xFF800000#32
    reduces_S1024x1024_S1024 (.inl rfl) rfl (ix1 n)).trans ?_
  unfold Cert.Spec.rowMax
  -- the two folds run over the same 1024 positions from the same word; their functions agree at every m
  exact congrArg (fun f : Fin 1024 → EReal => (Finset.univ : Finset (Fin 1024)).fold max (Ideal.ofBits .f32 0xFF800000#32) f)
    (funext fun m => congrArg (k0_pay4 (F := Ideal) v0 v5 v7 v17 v24) (lift_row n m))

end Cert.KernelIdeal.Scores

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.KernelTail.lean ====
/-
  The second half of the attention kernel, read at one entry of its result on the extended reals.

  Once the scores L [N, N] and their row maxima M [N] are known (N = 1024), the kernel's last value is computed
  from them, the value rows V [N, H] (H = 512), the output weight Wo [E, H] and the output bias bo [1, E]
  (E = 256) as
      M'(n)    = max (−∞, M(n))
      w(n, m)  = e^(L(n, m) − M'(n))                      the unnormalised softmax weights
      Z(n)     = ∑_m w(n, m)                              their row sums
      a(n, m)  = w(n, m) / Z(n)                           the softmax weights
      C(n, j)  = ∑_m a(n, m) · V(m, j)                    the mixture of the value rows
      out(n, e) = max (∑_j C(n, j) · Wo(e, j) + bo(0, e), 0)
  and is stored as a block [1, N, E]. On the extended reals every operation is exact and a change of format is
  the identity, so entry (0, n, e) of that block is `Spec.tail V L M Wo bo n e`, the same expression written over
  curried index functions. That is the theorem `pay1_apply` at the end of this file.

  The proof reads the term from the outside in. The pointwise operations (difference, exponential, quotient,
  maximum, sum of two arrays, change of format) read through at an index by definition. Every operation that
  moves data gets one lemma saying which entry of its operand an entry of its result is: a vector turned into a
  column and the column repeated along each row (`LibColumn.column_apply`), the sum of a row
  (`LibColumn.rowSum_apply`), the two matrix products (from the two product libraries), the bias row repeated
  down the rows and the unit axis added in front (from the layout library). Four stage lemmas over arbitrary inputs put these together, one per line
  of the display above that is not pointwise: `weight_apply`, `normalise_apply`, `context_apply`,
  `output_apply`. The theorem chains the four and compares with the definitions of `Spec`.
-/
import proofs.«153976_j9517647527942_1_alg».proof.Proof.Gen.KernelIdeal.Skeleton
import proofs.«153976_j9517647527942_1_alg».proof.Proof.Spec
import proofs.«153976_j9517647527942_1_alg».proof.Proof.LibDotNT
import proofs.«153976_j9517647527942_1_alg».proof.Proof.LibPlainDot
import proofs.«153976_j9517647527942_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tail

open Cert.KernelIdeal Cert.KernelIdeal.Gen Idealize.ShloMosaic Idealize.ShloMosaic.ValueIdx
open Cert.LibColumn

/-! ## The four stages, each over arbitrary inputs -/

section Stages

/-- The unnormalised softmax weights. For scores L, a vector M and a scalar c, the matrix
    exp (L − column (max (c, M))) has entry (n, m) equal to e^(L(n, m) − max (c, M(n))): the difference and the
    exponential are pointwise, and the column of max (c, M) at (n, m) is max (c, M(n)). -/
theorem weight_apply (L : FVec Ideal S1024x1024 .f32) (M : FVec Ideal S1024 .f32) (c : Ideal .f32)
    (h₁ : S1024.ShapeCasts S1024x1) (h₂ : S1024x1.Broadcasts S1024x1024) (n m : Fin 1024) :
    exp (subf L (broadcastTo S1024x1024 (shapeCast S1024x1 (maximumf (broadcast S1024 c) M) h₁) h₂)) (ix2 n m)
      = Ideal.exp (L (ix2 n m) - max c (M (ix1 n))) :=
  congrArg (fun t => Ideal.exp (L (ix2 n m) - t)) (column_apply (maximumf (broadcast S1024 c) M) h₁ h₂ n m)

/-- Each row divided by its sum. For a matrix W, the quotient of W by the column of its row sums has entry
    (n, m) equal to W(n, m) / ∑_m' W(n, m'): the quotient is pointwise, the column of the row sums at (n, m) is
    the sum of row n, and that is the sum over m' of W(n, m'). -/
theorem normalise_apply (W : FVec Ideal S1024x1024 .f32) (h : S1024x1024.Reduces [1] S1024) (hφ : FKind.Formats .f32)
    (hacc : (0x00000000#32 : BitVec 32) = FKind.add.neutral .f32 hφ)
    (h₁ : S1024.ShapeCasts S1024x1) (h₂ : S1024x1.Broadcasts S1024x1024) (n m : Fin 1024) :
    divf W (broadcastTo S1024x1024
        (shapeCast S1024x1 (multiReduction (F := Ideal) .add [1] S1024 W 0x00000000#32 h hφ hacc) h₁) h₂) (ix2 n m)
      = Ideal.div (W (ix2 n m)) (∑ m' : Fin 1024, W (ix2 n m')) :=
  congrArg (Ideal.div (W (ix2 n m))) ((column_apply _ h₁ h₂ n m).trans (rowSum_apply W h hφ hacc n))

/-- The mixture of the value rows. The plain product of the weights A [N, N] (after a change of format, which is
    the identity) with the values V [N, H] into a zero accumulator has entry (n, j) equal to
    ∑_m A(n, m) · V(m, j). -/
theorem context_apply (A : FVec Ideal S1024x1024 .f32) (V : FVec Ideal S1024x512 .bf16)
    (hlt : FTy.bits .bf16 < FTy.bits .f32) (n : Fin 1024) (j : Fin 512) :
    matmul (F := Ideal) dot_S1024x1024_S1024x512_S1024x512_1_0_0_1_n_n none (truncf .bf16 A hlt) V
        (constant S1024x512 .f32 0x00000000#32) (ix2 n j)
      = ∑ m : Fin 1024, A (ix2 n m) * V (ix2 m j) :=
  Cert.LibPlainDot.matmul_zero_apply none (truncf .bf16 A hlt) V n j

/-- The rectified output projection, stored with a unit axis in front. For C [N, H], a weight W [E, H] stored
    with its output axis first and a bias row b [1, E], entry (0, n, e) of the result is
    max (∑_j C(n, j) · W(e, j) + b(0, e), 0). The unit axis in front does not move an entry; the maximum and the
    sum of the two arrays are pointwise; the product contracts the second axis of both factors; the bias row,
    cast to its own shape (nothing moves) and repeated down the rows, is b(0, e) at (n, e); the splat of the zero
    word is that word everywhere. -/
theorem output_apply (C : FVec Ideal S1024x512 .f32) (W : Vec Ideal S256x512 .f32) (b : Vec Ideal S1x256 .f32)
    (hlt : FTy.bits .bf16 < FTy.bits .f32) (h₁ : S1x256.ShapeCasts S1x256) (h₂ : S1x256.Broadcasts S1024x256)
    (h₃ : S1024x256.ShapeCasts S1x1024x256) (n : Fin 1024) (e : Fin 256) :
    shapeCast S1x1024x256
        (maximumf
          (addf
            (matmul (F := Ideal) dot_S1024x512_S256x512_S1024x256_1_1_0_0_n_n none (truncf .bf16 C hlt)
              (truncf .bf16 W hlt) (constant S1024x256 .f32 0x00000000#32))
            (broadcastTo S1024x256 (shapeCast S1x256 b h₁) h₂))
          (broadcast S1024x256 (Scalar.ofBits (F := Ideal) .f32 0x00000000#32))) h₃ (ix3 (0 : Fin 1) n e)
      = max ((∑ j : Fin 512, C (ix2 n j) * W (ix2 e j)) + b (ix2 (0 : Fin 1) e))
          (Ideal.ofBits .f32 0x00000000#32) := by
  -- entry (0, n, e) of the block is entry (n, e) of the matrix
  refine (shapeCast_ab_1ab_apply _ h₃ (0 : Fin 1) n e).trans ?_
  -- that entry is max (P(n, e) + B(n, e), 0) by definition: it remains to read the product P and the bias B
  refine congrArg₂ (fun s t => max (s + t) (Ideal.ofBits .f32 0x00000000#32)) ?_ ?_
  · -- P(n, e) = ∑_j C(n, j) · W(e, j)
    exact Cert.LibDotNT.matmul_zero_apply none (truncf .bf16 C hlt) (truncf .bf16 W hlt) n e
  · -- B(n, e) = b(0, e)
    exact (broadcastTo_1b_ab_apply _ h₂ n e).trans (congrFun (shapeCast_self b h₁) _)

end Stages

/-! ## The kernel's last value at an entry -/

/-- THE TAIL OF THE KERNEL AT (0, n, e). From the value rows `v30`, the scores `v33`, the scores' row maxima `v34`,
    the word of −∞, the output weight `v48` and the output bias `v51`, the block the kernel stores has at (0, n, e)
    the entry `Spec.tail V L M Wo bo n e` with V, L, M, Wo, bo those arrays read by coordinates:
    max (∑_j (∑_m (w(n,m) / ∑_m' w(n,m')) · V(m,j)) · Wo(e,j) + bo(e), 0) with w(n,m) = e^(L(n,m) − max (−∞, M(n))).
    The four stages are peeled from the outside, each followed by the matching definition of `Spec`. -/
theorem pay1_apply (v30 : FVec Ideal S1024x512 .bf16) (v33 : FVec Ideal S1024x1024 .f32) (v34 : FVec Ideal S1024 .f32)
    (v48 : Vec Ideal S256x512 .f32) (v51 : Vec Ideal S1x256 .f32) (n : Fin 1024) (e : Fin 256) :
    k0_pay1 (F := Ideal) v30 v33 v34 (Scalar.ofBits .f32 0xFF800000#32) v48 v51 (ix3 (0 : Fin 1) n e)
      = Cert.Spec.tail (fun m j => v30 (ix2 m j)) (fun n m => v33 (ix2 n m)) (fun n => v34 (ix1 n))
          (fun e j => v48 (ix2 e j)) (fun e => v51 (ix2 (0 : Fin 1) e)) n e := by
  unfold k0_pay1
  -- the output projection: max (∑_j C(n, j) · Wo(e, j) + bo(0, e), 0), C the kernel's mixture
  refine (output_apply _ v48 v51 _ _ _ _ n e).trans ?_
  unfold Cert.Spec.tail
  -- both sides are that expression of C(n, ·), so it is enough that C(n, j) is the mixture `Spec.context` for each j
  refine congrArg (fun s => max (s + v51 (ix2 (0 : Fin 1) e)) (Ideal.ofBits .f32 0x00000000#32))
    (Finset.sum_congr rfl fun j _ => congrArg (· * v48 (ix2 e j)) ?_)
  -- the mixture: C(n, j) = ∑_m a(n, m) · V(m, j), a the kernel's softmax weights
  refine (context_apply _ v30 _ n j).trans ?_
  unfold Cert.Spec.context
  -- term by term, it is enough that a(n, m) is `Spec.softmax` for each m
  refine Finset.sum_congr rfl fun m _ => congrArg (· * v30 (ix2 m j)) ?_
  -- the normalisation: a(n, m) = w(n, m) / ∑_m' w(n, m'), w the kernel's unnormalised weights
  refine (normalise_apply _ _ _ _ _ _ n m).trans ?_
  unfold Cert.Spec.softmax Cert.Spec.weight
  -- the weights: w(n, m) = e^(L(n, m) − max (−∞, M(n))), in the numerator and in every term of the denominator
  exact congrArg₂ Ideal.div (weight_apply v33 v34 _ _ _ n m)
    (Finset.sum_congr rfl fun m' _ => weight_apply v33 v34 _ _ _ n m')

end Cert.KernelIdeal.Tail

end
-- ==== Proof.KernelValue.lean ====
/-
  The kernel's result array after the whole grid, as one function of its nine arguments.

  The grid has 32 points, one per batch element. At point t the pipeline stages block t of the input h (its 1024
  token rows), and the whole of every weight and bias (their windows sit at block (0, 0) at every point; each bias
  reaches the region as a [1, width] row, the bias vector with a unit axis put in front by a reshape on the host).
  The body stores one [1, 1024, 256] block, which is written back as block t of the result.

  What the body stores, entry (0, n, e), is the attention layer of `Cert.Spec.attn` applied to the point's blocks
  (`out_block`): the stored value is the tail of the layer (softmax, mixture, output projection) applied to the
  value projection, the scores and the scores' row maxima, and each of those three is read off its own part of the
  body. Reading the blocks back through the windows (`iblk0_apply` … `iblk8_apply`) turns this into entry (t, n, e)
  of the layer on the whole batch (`flushed_eq`). The 32 blocks tile the result along its first axis, so every
  index of the result is written by exactly the point of its batch coordinate (`cover`), and the result ends
  holding the layer on the whole batch (`final`, `run`).
-/
import proofs.«153976_j9517647527942_1_alg».proof.Proof.Gen.KernelIdeal.Value
import proofs.«153976_j9517647527942_1_alg».proof.Proof.SpecArray
import proofs.«153976_j9517647527942_1_alg».proof.Proof.KernelScores
import proofs.«153976_j9517647527942_1_alg».proof.Proof.KernelTail
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- The body's accesses start at offset zero on every axis. -/
theorem hz3 : (![0, 0, 0] : Fin 3 → Nat) = fun _ => 0 := funext fun a => by fin_cases a <;> rfl
/-- The same for the rank-2 accesses. -/
theorem hz2 : (![0, 0] : Fin 2 → Nat) = fun _ => 0 := funext fun a => by fin_cases a <;> rfl

/-- What one grid point leaves in the output block, entry (0, n, e): the layer applied to the point's input blocks. -/
theorem out_block (x0 : Vec Ideal S1x1024x256 .f32) (x1 : Vec Ideal S512x256 .f32) (x2 : Vec Ideal S1x512 .f32) (x3 : Vec Ideal S512x256 .f32) (x4 : Vec Ideal S1x512 .f32) (x5 : Vec Ideal S512x256 .f32) (x6 : Vec Ideal S1x512 .f32) (x7 : Vec Ideal S256x512 .f32) (x8 : Vec Ideal S1x256 .f32)
    (n : Fin 1024) (e : Fin 256) :
    out0_9 (F := Ideal) x0 x1 x2 x3 x4 x5 x6 x7 x8 (ix3 (0 : Fin 1) n e)
      = Cert.Spec.attn (fun n d => x0 (ix3 (0 : Fin 1) n d)) (fun j d => x1 (ix2 j d)) (fun j => x2 (ix2 (0 : Fin 1) j))
          (fun j d => x3 (ix2 j d)) (fun j => x4 (ix2 (0 : Fin 1) j)) (fun j d => x5 (ix2 j d)) (fun j => x6 (ix2 (0 : Fin 1) j))
          (fun e j => x7 (ix2 e j)) (fun e => x8 (ix2 (0 : Fin 1) e)) n e := by
  unfold out0_9
  rw [View.canon_unit_zero hz3]
  simp only [View.ld_unit_zero (S := S1x1024x256) hz3, View.ld_unit_zero (S := S512x256) hz2, View.ld_unit_zero (S := S1x512) hz2,
    View.ld_unit_zero (S := S256x512) hz2, View.ld_unit_zero (S := S1x256) hz2]
  refine (Cert.KernelIdeal.Tail.pay1_apply _ _ _ x7 x8 n e).trans ?_
  unfold Cert.Spec.attn
  have hV : (fun m j => k0_pay3 (F := Ideal) x0 x1 x2 (ix2 m j))
      = Cert.Spec.proj (fun n d => x0 (ix3 (0 : Fin 1) n d)) (fun j d => x1 (ix2 j d)) (fun j => x2 (ix2 (0 : Fin 1) j)) :=
    funext fun m => funext fun j => Cert.KernelIdeal.Scores.pay3_apply x0 x1 x2 m j
  have hL : (fun n m => k0_pay4 (F := Ideal) x0 x3 x5 x4 x6 (ix2 n m))
      = Cert.Spec.logits
          (Cert.Spec.proj (fun n d => x0 (ix3 (0 : Fin 1) n d)) (fun j d => x5 (ix2 j d)) (fun j => x6 (ix2 (0 : Fin 1) j)))
          (Cert.Spec.proj (fun n d => x0 (ix3 (0 : Fin 1) n d)) (fun j d => x3 (ix2 j d)) (fun j => x4 (ix2 (0 : Fin 1) j))) :=
    funext fun n => funext fun m => Cert.KernelIdeal.Scores.pay4_apply x0 x3 x5 x4 x6 n m
  have hM : (fun n => k0_pay5 (F := Ideal) x0 x3 x5 x4 x6 (ix1 n))
      = Cert.Spec.rowMax (fun n m => k0_pay4 (F := Ideal) x0 x3 x5 x4 x6 (ix2 n m)) :=
    funext fun n => Cert.KernelIdeal.Scores.pay5_apply x0 x3 x5 x4 x6 n
  rw [hM, hV, hL]

variable (m : (ℓ : Loc nD τ sig) → Buf (Elt Ideal) ℓ) (ρ : Dev nD → PrngReg)

/-- The index maps, decided over the 32 grid points: the input block and the output block of point t are block t
    along the batch axis, and every weight and bias window sits at block (0, 0) at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- A grid point's number is below 32. -/
theorem lt32 (t : Fin cfg0.N) : t.val < 32 := lt_of_lt_of_eq t.isLt N_0

/-- Block t of the input: entry (0, n, d) of the block is entry (t, n, d) of the array h. -/
theorem iblk0_apply (c : Dev nD) (t : Fin cfg0.N) (n : Fin 1024) (d : Fin 256) :
    (iblk m c 0 t : Vec Ideal S1x1024x256 .f32) (ix3 (0 : Fin 1) n d)
      = (m ((c : Thread nD τ).loc main_arg0) : S32x1024x256.Idx → EReal) (ix3 ⟨t.val, lt32 t⟩ n d) := by
  obtain ⟨f0, f1, f2, -⟩ := idx_facts t
  unfold iblk
  rw [View.read_apply]
  show V m c main_arg0 _ = _
  rw [V_main_arg0 m c]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 256 + 1 * d.val = d.val; omega

/-- Window 1 holds its whole array at every point: entry (p, q) of the block is entry (p, q) of the array. -/
theorem iblk1_apply (c : Dev nD) (t : Fin cfg0.N) (p : Fin 512) (q : Fin 256) :
    (iblk m c 1 t : Vec Ideal S512x256 .f32) (ix2 p q)
      = (m ((c : Thread nD τ).loc main_arg1) : S512x256.Idx → EReal) (ix2 p q) := by
  obtain ⟨-, -, -, g0, g1, -⟩ := idx_facts t
  unfold iblk
  rw [View.read_apply]
  show V m c main_arg1 _ = _
  rw [V_main_arg1 m c]
  refine congrArg _ (funext fun a => Fin.ext ?_)
  match a with
  | ⟨0, _⟩ => show win0_1.index t (0 : Fin 2) * 512 + 1 * p.val = p.val; omega
  | ⟨1, _⟩ => show win0_1.index t (1 : Fin 2) * 256 + 1 * q.val = q.val; omega

/-- The bias row staged in window 2 is the bias vector with a unit axis put in front. -/
theorem V_main_v0 (c : Dev nD) :
    (V m c main_v0 : S1x512.Idx → EReal) = shapeCast S1x512 (m ((c : Thread nD τ).loc main_arg2) : S512.Idx → EReal) shapeCasts_S512_S1x512 := by
  dsimp only [V, hostOps0]; after_results; rfl

/-- Window 2 holds that row at every point: entry (0, q) of the block is entry q of the bias vector. -/
theorem iblk2_apply (c : Dev nD) (t : Fin cfg0.N) (q : Fin 512) :
    (iblk m c 2 t : Vec Ideal S1x512 .f32) (ix2 (0 : Fin 1) q)
      = (m ((c : Thread nD τ).loc main_arg2) : S512.Idx → EReal) (ix1 q) := by
  obtain ⟨-, -, -, -, -, g0, g1, -⟩ := idx_facts t
  unfold iblk
  rw [View.read_apply]
  show V m c main_v0 _ = _
  rw [V_main_v0 m c]
  refine (congrArg _ (funext fun a => Fin.ext ?_)).trans (shapeCast_a_1a_apply _ _ (0 : Fin 1) q)
  match a with
  | ⟨0, _⟩ => show win0_2.index t (0 : Fin 2) * 1 + 1 * 0 = 0; omega
  | ⟨1, _⟩ => show win0_2.index t (1 : Fin 2) * 512 + 1 * q.val = q.val; omega

/-- Window 3 holds its whole array at every point: entry (p, q) of the block is entry (p, q) of the array. -/
theorem iblk3_apply (c : Dev nD) (t : Fin cfg0.N) (p : Fin 512) (q : Fin 256) :
    (iblk m c 3 t : Vec Ideal S512x256 .f32) (ix2 p q)
      = (m ((c : Thread nD τ).loc main_arg3) : S512x256.Idx → EReal) (ix2 p q) := by
  obtain ⟨-, -, -, -, -, -, -, g0, g1, -⟩ := idx_facts t
  unfold iblk
  rw [View.read_apply]
  show V m c main_arg3 _ = _
  rw [V_main_arg3 m c]
  refine congrArg _ (funext fun a => Fin.ext ?_)
  match a with
  | ⟨0, _⟩ => show win0_3.index t (0 : Fin 2) * 512 + 1 * p.val = p.val; omega
  | ⟨1, _⟩ => show win0_3.index t (1 : Fin 2) * 256 + 1 * q.val = q.val; omega

/-- The bias row staged in window 4 is the bias vector with a unit axis put in front. -/
theorem V_main_v1 (c : Dev nD) :
    (V m c main_v1 : S1x512.Idx → EReal) = shapeCast S1x512 (m ((c : Thread nD τ).loc main_arg4) : S512.Idx → EReal) shapeCasts_S512_S1x512 := by
  dsimp only [V, hostOps0]; after_results; rfl

/-- Window 4 holds that row at every point: entry (0, q) of the block is entry q of the bias vector. -/
theorem iblk4_apply (c : Dev nD) (t : Fin cfg0.N) (q : Fin 512) :
    (iblk m c 4 t : Vec Ideal S1x512 .f32) (ix2 (0 : Fin 1) q)
      = (m ((c : Thread nD τ).loc main_arg4) : S512.Idx → EReal) (ix1 q) := by
  obtain ⟨-, -, -, -, -, -, -, -, -, g0, g1, -⟩ := idx_facts t
  unfold iblk
  rw [View.read_apply]
  show V m c main_v1 _ = _
  rw [V_main_v1 m c]
  refine (congrArg _ (funext fun a => Fin.ext ?_)).trans (shapeCast_a_1a_apply _ _ (0 : Fin 1) q)
  match a with
  | ⟨0, _⟩ => show win0_4.index t (0 : Fin 2) * 1 + 1 * 0 = 0; omega
  | ⟨1, _⟩ => show win0_4.index t (1 : Fin 2) * 512 + 1 * q.val = q.val; omega

/-- Window 5 holds its whole array at every point: entry (p, q) of the block is entry (p, q) of the array. -/
theorem iblk5_apply (c : Dev nD) (t : Fin cfg0.N) (p : Fin 512) (q : Fin 256) :
    (iblk m c 5 t : Vec Ideal S512x256 .f32) (ix2 p q)
      = (m ((c : Thread nD τ).loc main_arg5) : S512x256.Idx → EReal) (ix2 p q) := by
  obtain ⟨-, -, -, -, -, -, -, -, -, -, -, g0, g1, -⟩ := idx_facts t
  unfold iblk
  rw [View.read_apply]
  show V m c main_arg5 _ = _
  rw [V_main_arg5 m c]
  refine congrArg _ (funext fun a => Fin.ext ?_)
  match a with
  | ⟨0, _⟩ => show win0_5.index t (0 : Fin 2) * 512 + 1 * p.val = p.val; omega
  | ⟨1, _⟩ => show win0_5.index t (1 : Fin 2) * 256 + 1 * q.val = q.val; omega

/-- The bias row staged in window 6 is the bias vector with a unit axis put in front. -/
theorem V_main_v2 (c : Dev nD) :
    (V m c main_v2 : S1x512.Idx → EReal) = shapeCast S1x512 (m ((c : Thread nD τ).loc main_arg6) : S512.Idx → EReal) shapeCasts_S512_S1x512 := by
  dsimp only [V, hostOps0]; after_results; rfl

/-- Window 6 holds that row at every point: entry (0, q) of the block is entry q of the bias vector. -/
theorem iblk6_apply (c : Dev nD) (t : Fin cfg0.N) (q : Fin 512) :
    (iblk m c 6 t : Vec Ideal S1x512 .f32) (ix2 (0 : Fin 1) q)
      = (m ((c : Thread nD τ).loc main_arg6) : S512.Idx → EReal) (ix1 q) := by
  obtain ⟨-, -, -, -, -, -, -, -, -, -, -, -, -, g0, g1, -⟩ := idx_facts t
  unfold iblk
  rw [View.read_apply]
  show V m c main_v2 _ = _
  rw [V_main_v2 m c]
  refine (congrArg _ (funext fun a => Fin.ext ?_)).trans (shapeCast_a_1a_apply _ _ (0 : Fin 1) q)
  match a with
  | ⟨0, _⟩ => show win0_6.index t (0 : Fin 2) * 1 + 1 * 0 = 0; omega
  | ⟨1, _⟩ => show win0_6.index t (1 : Fin 2) * 512 + 1 * q.val = q.val; omega

/-- Window 7 holds its whole array at every point: entry (p, q) of the block is entry (p, q) of the array. -/
theorem iblk7_apply (c : Dev nD) (t : Fin cfg0.N) (p : Fin 256) (q : Fin 512) :
    (iblk m c 7 t : Vec Ideal S256x512 .f32) (ix2 p q)
      = (m ((c : Thread nD τ).loc main_arg7) : S256x512.Idx → EReal) (ix2 p q) := by
  obtain ⟨-, -, -, -, -, -, -, -, -, -, -, -, -, -, -, g0, g1, -⟩ := idx_facts t
  unfold iblk
  rw [View.read_apply]
  show V m c main_arg7 _ = _
  rw [V_main_arg7 m c]
  refine congrArg _ (funext fun a => Fin.ext ?_)
  match a with
  | ⟨0, _⟩ => show win0_7.index t (0 : Fin 2) * 256 + 1 * p.val = p.val; omega
  | ⟨1, _⟩ => show win0_7.index t (1 : Fin 2) * 512 + 1 * q.val = q.val; omega

/-- The bias row staged in window 8 is the bias vector with a unit axis put in front. -/
theorem V_main_v3 (c : Dev nD) :
    (V m c main_v3 : S1x256.Idx → EReal) = shapeCast S1x256 (m ((c : Thread nD τ).loc main_arg8) : S256.Idx → EReal) shapeCasts_S256_S1x256 := by
  dsimp only [V, hostOps0]; after_results; rfl

/-- Window 8 holds that row at every point: entry (0, q) of the block is entry q of the bias vector. -/
theorem iblk8_apply (c : Dev nD) (t : Fin cfg0.N) (q : Fin 256) :
    (iblk m c 8 t : Vec Ideal S1x256 .f32) (ix2 (0 : Fin 1) q)
      = (m ((c : Thread nD τ).loc main_arg8) : S256.Idx → EReal) (ix1 q) := by
  obtain ⟨-, -, -, -, -, -, -, -, -, -, -, -, -, -, -, -, -, g0, g1, -⟩ := idx_facts t
  unfold iblk
  rw [View.read_apply]
  show V m c main_v3 _ = _
  rw [V_main_v3 m c]
  refine (congrArg _ (funext fun a => Fin.ext ?_)).trans (shapeCast_a_1a_apply _ _ (0 : Fin 1) q)
  match a with
  | ⟨0, _⟩ => show win0_8.index t (0 : Fin 2) * 1 + 1 * 0 = 0; omega
  | ⟨1, _⟩ => show win0_8.index t (1 : Fin 2) * 256 + 1 * q.val = q.val; omega

/-- The same at any index y of the output block: its first coordinate is 0, the other two are the row and the column. -/
theorem out_block_idx (x0 : Vec Ideal S1x1024x256 .f32) (x1 : Vec Ideal S512x256 .f32) (x2 : Vec Ideal S1x512 .f32) (x3 : Vec Ideal S512x256 .f32) (x4 : Vec Ideal S1x512 .f32) (x5 : Vec Ideal S512x256 .f32) (x6 : Vec Ideal S1x512 .f32) (x7 : Vec Ideal S256x512 .f32) (x8 : Vec Ideal S1x256 .f32) (y : S1x1024x256.Idx) :
    out0_9 (F := Ideal) x0 x1 x2 x3 x4 x5 x6 x7 x8 y
      = Cert.Spec.attn (fun n d => x0 (ix3 (0 : Fin 1) n d)) (fun j d => x1 (ix2 j d)) (fun j => x2 (ix2 (0 : Fin 1) j))
          (fun j d => x3 (ix2 j d)) (fun j => x4 (ix2 (0 : Fin 1) j)) (fun j d => x5 (ix2 j d)) (fun j => x6 (ix2 (0 : Fin 1) j))
          (fun e j => x7 (ix2 e j)) (fun e => x8 (ix2 (0 : Fin 1) e)) ⟨(y 1).val, (y 1).isLt⟩ ⟨(y 2).val, (y 2).isLt⟩ := by
  obtain ⟨u, n, e, rfl⟩ : ∃ (u : Fin 1) (n : Fin 1024) (e : Fin 256), y = ix3 u n e := ⟨y 0, y 1, y 2, eq_ix3 y⟩
  obtain rfl : u = 0 := Subsingleton.elim _ _
  exact out_block x0 x1 x2 x3 x4 x5 x6 x7 x8 n e

/-- The array the kernel's result buffer ends holding: the layer on the whole batch, of the arguments as launched. -/
abbrev resultArr (c : Dev nD) : S32x1024x256.Idx → EReal :=
  Cert.Spec.attnArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What grid point t writes back is block t of that array: the point's input block is block t of h, its weight
    and bias blocks are the whole weights and biases, and the output block's entry (0, n, e) lands at (t, n, e). -/
theorem flushed_eq (c : Dev nD) (t : Fin cfg0.N) :
    (dats m 0 c).flushed 9 t = ((cfg0.win 9).blk t).view.read (Elt Ideal) (resultArr m c) := by
  obtain ⟨-, -, -, -, -, -, -, -, -, -, -, -, -, -, -, -, -, -, -, g0, g1, g2⟩ := idx_facts t
  rw [flushed9]
  funext y
  show out0_9 (F := Ideal) (iblk m c 0 t) (iblk m c 1 t) (iblk m c 2 t) (iblk m c 3 t) (iblk m c 4 t) (iblk m c 5 t) (iblk m c 6 t) (iblk m c 7 t) (iblk m c 8 t) y = resultArr m c (((cfg0.win 9).blk t).view.emb y)
  have hy0 : (y 0).val < 1 := (y 0).isLt
  have hy1 : (y 1).val < 1024 := (y 1).isLt
  have hy2 : (y 2).val < 256 := (y 2).isLt
  have he : ((cfg0.win 9).blk t).view.emb y = ix3 ⟨t.val, lt32 t⟩ ⟨(y 1).val, hy1⟩ ⟨(y 2).val, hy2⟩ :=
    funext fun a => Fin.ext (by
      match a with
      | ⟨0, _⟩ => show win0_9.index t (0 : Fin 3) * 1 + 1 * (y 0).val = t.val; omega
      | ⟨1, _⟩ => show win0_9.index t (1 : Fin 3) * 1024 + 1 * (y 1).val = (y 1).val; omega
      | ⟨2, _⟩ => show win0_9.index t (2 : Fin 3) * 256 + 1 * (y 2).val = (y 2).val; omega)
  rw [he]
  refine (out_block_idx (iblk m c 0 t) (iblk m c 1 t) (iblk m c 2 t) (iblk m c 3 t) (iblk m c 4 t) (iblk m c 5 t) (iblk m c 6 t) (iblk m c 7 t) (iblk m c 8 t) y).trans ?_
  show _ = Cert.Spec.attnBatch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨t.val, lt32 t⟩ ⟨(y 1).val, hy1⟩ ⟨(y 2).val, hy2⟩
  unfold Cert.Spec.attnBatch
  rw [funext fun n => funext fun d => iblk0_apply m c t n d, funext fun p => funext fun q => iblk1_apply m c t p q,
    funext fun q => iblk2_apply m c t q, funext fun p => funext fun q => iblk3_apply m c t p q,
    funext fun q => iblk4_apply m c t q, funext fun p => funext fun q => iblk5_apply m c t p q,
    funext fun q => iblk6_apply m c t q, funext fun p => funext fun q => iblk7_apply m c t p q,
    funext fun q => iblk8_apply m c t q]

/-- Every index (β, n, e) of the result lies in the block of grid point β. -/
theorem cover (i : S32x1024x256.Idx) :
    ∃ t : Fin cfg0.N, (cfg0.win 9).flush t = true ∧ i ∈ ((cfg0.win 9).blk t).view.set := by
  have hi0 : (i 0).val < 32 := (i 0).isLt
  have hi1 : (i 1).val < 1024 := (i 1).isLt
  have hi2 : (i 2).val < 256 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, -, -, -, -, -, -, -, -, -, -, g0, g1, g2⟩ := idx_facts t
  refine ⟨t, flush0_9 t, ?_⟩
  show i ∈ ((View.whole main_v4).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- So after the last grid point the result buffer holds the layer on the whole batch. -/
theorem final (c : Dev nD) : (dats m 0 c).arrAt 9 cfg0.N = resultArr m c :=
  (dats m 0 c).arrAt_eq_of_cover 9 (resultArr m c) (fun t _ => flushed_eq m c t) cover

/-- The kernel's run: every execution terminates with the result buffer at that array and the arguments unchanged. -/
theorem run : θ_run defs (onTc (τ := τ) (main (F := Ideal))) ⟨m, fun _ => 0, ρ⟩ fun r => ∀ c : Dev nD,
      r.2.mem ((c : Thread nD τ).loc main_v4) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefValue.lean ====
/-
  The reference program, read as mathematics.

  The reference computes a single-head attention layer on a whole batch at once: 32 blocks of 1024 token
  rows of width 256. This module shows that its result at batch element β, row n, column e is the layer
  of Spec applied to block β alone,

      result(β, n, e) = attn (x(β, ·, ·)) Wv bv Wk bk Wq bq Wo bo n e,

  where every quantity is an extended real and every operation is exact.

  The program is a straight line of 44 array operations: those numbered 0 to 32 below, the three constants they
  use (−∞ twice, 0 once), and, inside each of the four rectifiers, a constant 0 and its spreading over the block.
  The proof follows the program in order. Each operation's result at one index is known from its operands at one index (or, for a product
  or a sum along an axis, as a finite sum over that axis); what is left to do is to say WHICH index, and to
  recognise the result.

    • Operations 0–4, 5–9 and 10–14 are three rectified projections of the same shape: a product of the block
      with a weight stored output axis first, a bias spread over the block, and a maximum with 0. They are
      V, Q and K ( ref_V, ref_Q, ref_K ).
    • Operation 15 multiplies Q by K inside each batch element, contracting the feature axis: the scores
      L(n, m) = ∑_j Q(n,j) · K(m,j) ( ref_L ).
    • Operation 16 takes the maximum of every row of scores, as a fold of max from −∞ over the row; the fold
      over the indices of a row is the fold over the row's coordinates, in any order since max is
      commutative and associative ( ref_M ).
    • Operations 17–32 are the rest: max(−∞, ·) of the row maximum, spread back over the row and subtracted;
      the exponential; the row sums, started from 0; the division of every exponential by its row's sum; the
      product of these weights with V inside each batch element; the output product, bias and maximum
      with 0. Kept as a function of V, L and the row maxima alone, this is Spec.tail ( ref_tail, through the
      stages ref_W, ref_Z, ref_P, ref_C, ref_O ).

  The batch index β is carried through unchanged by every operation: a product with a batch axis pairs block β
  with block β, every elementwise operation and every spreading of a row value keeps β fixed. That is why the
  whole-batch program, read at β, is the one-block layer. ref_attn puts the four parts together.
-/
import proofs.«153976_j9517647527942_1_alg».proof.Proof.Gen.ReferenceIdeal.Read
import proofs.«153976_j9517647527942_1_alg».proof.Proof.Spec
import proofs.«153976_j9517647527942_1_alg».proof.Proof.LibDotNT
import proofs.«153976_j9517647527942_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S32x1024x256, .f32⟩ : BufTy).Contents (Elt Ideal)) (x1 : (⟨S512x256, .f32⟩ : BufTy).Contents (Elt Ideal)) (x2 : (⟨S512, .f32⟩ : BufTy).Contents (Elt Ideal)) (x3 : (⟨S512x256, .f32⟩ : BufTy).Contents (Elt Ideal)) (x4 : (⟨S512, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal))

/-! ### Index bookkeeping

Every stage is read at an index written with the coordinate constructors `ix1`, `ix2`, `ix3`. The
equations below say where each operation of the program looks in its operands, coordinate by
coordinate: a product over the last axis of both factors reads (β, n, k) on the left and (j, k) on the
right; a bias of length 512 spread over a block is read at its last coordinate; and so on. Each is
proved by comparing the coordinates one axis at a time. -/

/-- The first projection reads its left factor at (β, n, k). -/
theorem lidx_v0 (β : Fin 32) (n : Fin 1024) (j : Fin 512) (k : Fin 256) :
    lidx_main_v0 (ix3 β n j) k = ix3 β n k :=
  funext fun a => Fin.ext (by match a with | ⟨0, _⟩ => rfl | ⟨1, _⟩ => rfl | ⟨2, _⟩ => rfl)

/-- … and its right factor, the weight stored output axis first, at (j, k). -/
theorem ridx_v0 (β : Fin 32) (n : Fin 1024) (j : Fin 512) (k : Fin 256) :
    ridx_main_v0 (ix3 β n j) k = ix2 j k :=
  funext fun a => Fin.ext (by match a with | ⟨0, _⟩ => rfl | ⟨1, _⟩ => rfl)

/-- The bias of the first projection, spread over the block, is read at the last coordinate. -/
theorem bidx_v2 (β : Fin 32) (n : Fin 1024) (j : Fin 512) :
    idx_main_v1 (idx_main_v2 (ix3 β n j)) = ix1 j :=
  funext fun a => Fin.ext (by match a with | ⟨0, _⟩ => rfl)

/-- The same three equations for the second projection: its left factor is read at (β, n, k). -/
theorem lidx_v5 (β : Fin 32) (n : Fin 1024) (j : Fin 512) (k : Fin 256) :
    lidx_main_v5 (ix3 β n j) k = ix3 β n k :=
  funext fun a => Fin.ext (by match a with | ⟨0, _⟩ => rfl | ⟨1, _⟩ => rfl | ⟨2, _⟩ => rfl)

/-- The second projection reads its weight at (j, k). -/
theorem ridx_v5 (β : Fin 32) (n : Fin 1024) (j : Fin 512) (k : Fin 256) :
    ridx_main_v5 (ix3 β n j) k = ix2 j k :=
  funext fun a => Fin.ext (by match a with | ⟨0, _⟩ => rfl | ⟨1, _⟩ => rfl)

/-- The second projection's bias, spread over the block, is read at the last coordinate. -/
theorem bidx_v7 (β : Fin 32) (n : Fin 1024) (j : Fin 512) :
    idx_main_v6 (idx_main_v7 (ix3 β n j)) = ix1 j :=
  funext fun a => Fin.ext (by match a with | ⟨0, _⟩ => rfl)

/-- … and for the third: its left factor is read at (β, n, k). -/
theorem lidx_v10 (β : Fin 32) (n : Fin 1024) (j : Fin 512) (k : Fin 256) :
    lidx_main_v10 (ix3 β n j) k = ix3 β n k :=
  funext fun a => Fin.ext (by match a with | ⟨0, _⟩ => rfl | ⟨1, _⟩ => rfl | ⟨2, _⟩ => rfl)

/-- The third projection reads its weight at (j, k). -/
theorem ridx_v10 (β : Fin 32) (n : Fin 1024) (j : Fin 512) (k : Fin 256) :
    ridx_main_v10 (ix3 β n j) k = ix2 j k :=
  funext fun a => Fin.ext (by match a with | ⟨0, _⟩ => rfl | ⟨1, _⟩ => rfl)

/-- The third projection's bias, spread over the block, is read at the last coordinate. -/
theorem bidx_v12 (β : Fin 32) (n : Fin 1024) (j : Fin 512) :
    idx_main_v11 (idx_main_v12 (ix3 β n j)) = ix1 j :=
  funext fun a => Fin.ext (by match a with | ⟨0, _⟩ => rfl)

/-- The scores contract the last axis of both factors inside one batch element: entry (β, n, m) reads
    the left factor at (β, n, k) … -/
theorem lidx_v15 (β : Fin 32) (n m : Fin 1024) (k : Fin 512) :
    lidx_main_v15 (ix3 β n m) k = ix3 β n k :=
  funext fun a => Fin.ext (by match a with | ⟨0, _⟩ => rfl | ⟨1, _⟩ => rfl | ⟨2, _⟩ => rfl)

/-- … and the right factor at (β, m, k). -/
theorem ridx_v15 (β : Fin 32) (n m : Fin 1024) (k : Fin 512) :
    ridx_main_v15 (ix3 β n m) k = ix3 β m k :=
  funext fun a => Fin.ext (by match a with | ⟨0, _⟩ => rfl | ⟨1, _⟩ => rfl | ⟨2, _⟩ => rfl)

/-! ### The three rectified projections -/

/-- The first projection of the program is V: entry (β, m, j) of the stage is
    max (∑_d x(β,m,d) · W(j,d) + b(j), 0) with the weight x1 and the bias x2, that is, the rectified projection
    of block β. The product is a finite sum over the shared axis d; the bias of length 512 is first laid along
    the last axis of a 1 × 1 × 512 array and then spread over the block, so it is read at j; the 0 is one
    constant spread over the block. -/
theorem ref_V (β : Fin 32) (m : Fin 1024) (j : Fin 512) :
    val_main_v4 (F := Ideal) x0 x1 x2 (ix3 β m j)
      = Cert.Spec.proj (fun n d => x0 (ix3 β n d)) (fun j d => x1 (ix2 j d)) (fun j => x2 (ix1 j)) m j := by
  rw [val_main_v4_apply, val_main_v3_apply, val_main_v0_apply, val_main_v2_apply, val_main_v1_apply,
    val_main_call0_v0_apply, val_main_call0_cst_apply, bidx_v2]
  simp only [lidx_v0, ridx_v0, Ideal.maximumf_def, Ideal.addf_def]
  rfl

/-- The second projection of the program is Q: entry (β, n, j) of the stage is the rectified projection of
    block β by the weight x5 and the bias x6. -/
theorem ref_Q (β : Fin 32) (n : Fin 1024) (j : Fin 512) :
    val_main_v9 (F := Ideal) x0 x5 x6 (ix3 β n j)
      = Cert.Spec.proj (fun n d => x0 (ix3 β n d)) (fun j d => x5 (ix2 j d)) (fun j => x6 (ix1 j)) n j := by
  rw [val_main_v9_apply, val_main_v8_apply, val_main_v5_apply, val_main_v7_apply, val_main_v6_apply,
    val_main_call1_v0_apply, val_main_call1_cst_apply, bidx_v7]
  simp only [lidx_v5, ridx_v5, Ideal.maximumf_def, Ideal.addf_def]
  rfl

/-- The third projection of the program is K: entry (β, m, j) of the stage is the rectified projection of
    block β by the weight x3 and the bias x4. -/
theorem ref_K (β : Fin 32) (m : Fin 1024) (j : Fin 512) :
    val_main_v14 (F := Ideal) x0 x3 x4 (ix3 β m j)
      = Cert.Spec.proj (fun n d => x0 (ix3 β n d)) (fun j d => x3 (ix2 j d)) (fun j => x4 (ix1 j)) m j := by
  rw [val_main_v14_apply, val_main_v13_apply, val_main_v10_apply, val_main_v12_apply, val_main_v11_apply,
    val_main_call2_v0_apply, val_main_call2_cst_apply, bidx_v12]
  simp only [lidx_v10, ridx_v10, Ideal.maximumf_def, Ideal.addf_def]
  rfl

/-! ### The scores and their row maxima -/

/-- The scores: entry (β, n, m) of operation 15 is ∑_j Q(n,j) · K(m,j), with Q and K the rectified
    projections of block β. The product has a batch axis, so both factors are read in batch element β, and it
    contracts the last axis of both, so the left factor is read in row n and the right factor in row m. -/
theorem ref_L (β : Fin 32) (n m : Fin 1024) :
    val_main_v15 (F := Ideal) x0 x3 x4 x5 x6 (ix3 β n m)
      = Cert.Spec.logits
          (Cert.Spec.proj (fun n d => x0 (ix3 β n d)) (fun j d => x5 (ix2 j d)) (fun j => x6 (ix1 j)))
          (Cert.Spec.proj (fun n d => x0 (ix3 β n d)) (fun j d => x3 (ix2 j d)) (fun j => x4 (ix1 j))) n m := by
  rw [val_main_v15_apply]
  unfold Cert.Spec.logits
  refine Finset.sum_congr rfl fun k _ => ?_
  rw [lidx_v15, ridx_v15, ref_Q, ref_K]

/-- The row maxima: entry (β, n) of operation 16 is the fold of max, from −∞, over row n of the scores of
    batch element β. The reduction folds its operation over all indices of the block that drop to (β, n) when
    the last axis is removed; these are exactly (β, n, m) for m along that axis, and since max is commutative and
    associative the fold over them is the fold over m. The operation is max and the starting value is the word
    of −∞, both by definition. -/
theorem ref_M (β : Fin 32) (n : Fin 1024) :
    val_main_v16 (F := Ideal) x0 x3 x4 x5 x6 (ix2 β n)
      = Cert.Spec.rowMax (fun n m => val_main_v15 (F := Ideal) x0 x3 x4 x5 x6 (ix3 β n m)) n := by
  have h : Shape.Reduces S32x1024x1024 [2] S32x1024 := by decide
  have e : (val_main_v15 (F := Ideal) x0 x3 x4 x5 x6 ∘ h.lift (ix2 β n))
      = fun m : Fin 1024 => val_main_v15 (F := Ideal) x0 x3 x4 x5 x6 (ix3 β n m) :=
    funext fun m => congrArg (val_main_v15 (F := Ideal) x0 x3 x4 x5 x6)
      (funext fun a => Fin.ext (by match a with | ⟨0, _⟩ => rfl | ⟨1, _⟩ => rfl | ⟨2, _⟩ => rfl))
  have key := Host.reduce_eq_fold_single (FloatOps.maximumf (F := Ideal) (φ := .f32))
    (val_main_v15 (F := Ideal) x0 x3 x4 x5 x6) (val_main_cst (F := Ideal))
    reducesTo_S32x1024x1024_S32x1024_d2 h h_S_ (ix2 β n)
  rw [e] at key
  unfold val_main_v16
  refine key.trans ?_
  unfold Cert.Spec.rowMax
  rfl

/-! ### The softmax, the mixture and the output projection

From here on the three stages V (operation 4), the scores (operation 15) and their row maxima
(operation 16) are kept as they are, unopened: everything below is a function of them. -/

/-- The row maximum, spread back over its row in two steps, is read at (β, n). -/
theorem midx_v20 (β : Fin 32) (n m : Fin 1024) :
    idx_main_v19 (idx_main_v20 (ix3 β n m)) = ix2 β n :=
  funext fun a => Fin.ext (by match a with | ⟨0, _⟩ => rfl | ⟨1, _⟩ => rfl)

/-- The row sum, spread back over its row in two steps, is read at (β, n). -/
theorem sidx_v25 (β : Fin 32) (n m : Fin 1024) :
    idx_main_v24 (idx_main_v25 (ix3 β n m)) = ix2 β n :=
  funext fun a => Fin.ext (by match a with | ⟨0, _⟩ => rfl | ⟨1, _⟩ => rfl)

/-- The row sum at (β, n) runs over the entries (β, n, k). -/
theorem ridx_v23 (β : Fin 32) (n k : Fin 1024) :
    idx_main_v23 (ix2 β n) k = ix3 β n k :=
  funext fun a => Fin.ext (by match a with | ⟨0, _⟩ => rfl | ⟨1, _⟩ => rfl | ⟨2, _⟩ => rfl)

/-- The mixture contracts the last axis of the weights with the middle axis of V inside one batch
    element: entry (β, n, j) reads the weights at (β, n, k) … -/
theorem lidx_v27 (β : Fin 32) (n : Fin 1024) (j : Fin 512) (k : Fin 1024) :
    lidx_main_v27 (ix3 β n j) k = ix3 β n k :=
  funext fun a => Fin.ext (by match a with | ⟨0, _⟩ => rfl | ⟨1, _⟩ => rfl | ⟨2, _⟩ => rfl)

/-- … and V at (β, k, j). -/
theorem ridx_v27 (β : Fin 32) (n : Fin 1024) (j : Fin 512) (k : Fin 1024) :
    ridx_main_v27 (ix3 β n j) k = ix3 β k j :=
  funext fun a => Fin.ext (by match a with | ⟨0, _⟩ => rfl | ⟨1, _⟩ => rfl | ⟨2, _⟩ => rfl)

/-- The output product reads the mixture at (β, n, k) … -/
theorem lidx_v28 (β : Fin 32) (n : Fin 1024) (e : Fin 256) (k : Fin 512) :
    lidx_main_v28 (ix3 β n e) k = ix3 β n k :=
  funext fun a => Fin.ext (by match a with | ⟨0, _⟩ => rfl | ⟨1, _⟩ => rfl | ⟨2, _⟩ => rfl)

/-- … and the output weight, stored output axis first, at (e, k). -/
theorem ridx_v28 (β : Fin 32) (n : Fin 1024) (e : Fin 256) (k : Fin 512) :
    ridx_main_v28 (ix3 β n e) k = ix2 e k :=
  funext fun a => Fin.ext (by match a with | ⟨0, _⟩ => rfl | ⟨1, _⟩ => rfl)

/-- The output bias, spread over the block, is read at the last coordinate. -/
theorem bidx_v30 (β : Fin 32) (n : Fin 1024) (e : Fin 256) :
    idx_main_v29 (idx_main_v30 (ix3 β n e)) = ix1 e :=
  funext fun a => Fin.ext (by match a with | ⟨0, _⟩ => rfl)

/-- The exponentials (operation 22): entry (β, n, m) is e^(L(n,m) − max(−∞, M(n))), the unnormalised
    softmax weight, where L is the block of scores and M its row maxima. The subtracted term is the
    row maximum, first compared with −∞ and then spread back over the row. -/
theorem ref_W (β : Fin 32) (n m : Fin 1024) :
    val_main_v22 (F := Ideal) x0 x3 x4 x5 x6 (ix3 β n m)
      = Cert.Spec.weight (fun n m => val_main_v15 (F := Ideal) x0 x3 x4 x5 x6 (ix3 β n m))
          (fun n => val_main_v16 (F := Ideal) x0 x3 x4 x5 x6 (ix2 β n)) n m := by
  rw [val_main_v22_apply, val_main_v21_apply, val_main_v20_apply, val_main_v19_apply, midx_v20,
    val_main_v18_apply, val_main_v17_apply, val_main_cst_0_apply]
  rfl

/-- The row sums (operation 23): entry (β, n) is the sum of the weights of row n. The program starts
    the sum from the word 0, which is the number 0 and disappears. -/
theorem ref_Z (β : Fin 32) (n : Fin 1024) :
    val_main_v23 (F := Ideal) x0 x3 x4 x5 x6 (ix2 β n)
      = ∑ m' : Fin 1024, Cert.Spec.weight (fun n m => val_main_v15 (F := Ideal) x0 x3 x4 x5 x6 (ix3 β n m))
          (fun n => val_main_v16 (F := Ideal) x0 x3 x4 x5 x6 (ix2 β n)) n m' := by
  rw [val_main_v23_apply, val_main_cst_1_apply, Ideal.ofBits_def, Ideal.ofBits_zero_f32, zero_add]
  refine Finset.sum_congr rfl fun k _ => ?_
  rw [ridx_v23, ref_W]

/-- The quotients (operation 26): entry (β, n, m) is the softmax weight, the exponential divided by its
    row's sum (the sum spread back over the row). -/
theorem ref_P (β : Fin 32) (n m : Fin 1024) :
    val_main_v26 (F := Ideal) x0 x3 x4 x5 x6 (ix3 β n m)
      = Cert.Spec.softmax (fun n m => val_main_v15 (F := Ideal) x0 x3 x4 x5 x6 (ix3 β n m))
          (fun n => val_main_v16 (F := Ideal) x0 x3 x4 x5 x6 (ix2 β n)) n m := by
  rw [val_main_v26_apply, val_main_v25_apply, val_main_v24_apply, sidx_v25, ref_W, ref_Z]
  rfl

/-- The mixture (operation 27): entry (β, n, j) is ∑_m softmax(n,m) · V(m,j), both factors taken in batch
    element β. -/
theorem ref_C (β : Fin 32) (n : Fin 1024) (j : Fin 512) :
    val_main_v27 (F := Ideal) x0 x1 x2 x3 x4 x5 x6 (ix3 β n j)
      = Cert.Spec.context (fun m j => val_main_v4 (F := Ideal) x0 x1 x2 (ix3 β m j))
          (fun n m => val_main_v15 (F := Ideal) x0 x3 x4 x5 x6 (ix3 β n m))
          (fun n => val_main_v16 (F := Ideal) x0 x3 x4 x5 x6 (ix2 β n)) n j := by
  rw [val_main_v27_apply]
  unfold Cert.Spec.context
  refine Finset.sum_congr rfl fun k _ => ?_
  rw [lidx_v27, ridx_v27, ref_P]

/-- The output product (operation 28): entry (β, n, e) is ∑_j C(n,j) · Wo(e,j), C the mixture. -/
theorem ref_O (β : Fin 32) (n : Fin 1024) (e : Fin 256) :
    val_main_v28 (F := Ideal) x0 x1 x2 x3 x4 x5 x6 x7 (ix3 β n e)
      = ∑ j : Fin 512, Cert.Spec.context (fun m j => val_main_v4 (F := Ideal) x0 x1 x2 (ix3 β m j))
          (fun n m => val_main_v15 (F := Ideal) x0 x3 x4 x5 x6 (ix3 β n m))
          (fun n => val_main_v16 (F := Ideal) x0 x3 x4 x5 x6 (ix2 β n)) n j * x7 (ix2 e j) := by
  rw [val_main_v28_apply]
  refine Finset.sum_congr rfl fun k _ => ?_
  rw [lidx_v28, ridx_v28, ref_C]

/-- Everything after the scores and their row maxima: entry (β, n, e) of the result is
    max (∑_j C(n,j) · Wo(e,j) + bo(e), 0), where C is the mixture of the rows of V by the softmax weights of
    the scores L with row maxima M, all in batch element β. V, L and M enter as the stages of the program
    themselves and are not opened. -/
theorem ref_tail (β : Fin 32) (n : Fin 1024) (e : Fin 256) :
    val_main_v32 (F := Ideal) x0 x1 x2 x3 x4 x5 x6 x7 x8 (ix3 β n e)
      = Cert.Spec.tail (fun m j => val_main_v4 (F := Ideal) x0 x1 x2 (ix3 β m j))
          (fun n m => val_main_v15 (F := Ideal) x0 x3 x4 x5 x6 (ix3 β n m))
          (fun n => val_main_v16 (F := Ideal) x0 x3 x4 x5 x6 (ix2 β n))
          (fun e j => x7 (ix2 e j)) (fun e => x8 (ix1 e)) n e := by
  rw [val_main_v32_apply, val_main_v31_apply, ref_O, val_main_v30_apply, val_main_v29_apply, bidx_v30,
    val_main_call3_v0_apply, val_main_call3_cst_apply]
  rfl

/-- The reference's result at (β, n, e) is the layer applied to batch element β. -/
theorem ref_attn (β : Fin 32) (n : Fin 1024) (e : Fin 256) :
    val_main_v32 (F := Ideal) x0 x1 x2 x3 x4 x5 x6 x7 x8 (ix3 β n e)
      = Cert.Spec.attn (fun n d => x0 (ix3 β n d)) (fun j d => x1 (ix2 j d)) (fun j => x2 (ix1 j))
          (fun j d => x3 (ix2 j d)) (fun j => x4 (ix1 j)) (fun j d => x5 (ix2 j d)) (fun j => x6 (ix1 j))
          (fun e j => x7 (ix2 e j)) (fun e => x8 (ix1 e)) n e := by
  rw [ref_tail]
  unfold Cert.Spec.attn
  have hV : (fun m j => val_main_v4 (F := Ideal) x0 x1 x2 (ix3 β m j))
      = Cert.Spec.proj (fun n d => x0 (ix3 β n d)) (fun j d => x1 (ix2 j d)) (fun j => x2 (ix1 j)) :=
    funext fun m => funext fun j => ref_V x0 x1 x2 β m j
  have hL : (fun n m => val_main_v15 (F := Ideal) x0 x3 x4 x5 x6 (ix3 β n m))
      = Cert.Spec.logits
          (Cert.Spec.proj (fun n d => x0 (ix3 β n d)) (fun j d => x5 (ix2 j d)) (fun j => x6 (ix1 j)))
          (Cert.Spec.proj (fun n d => x0 (ix3 β n d)) (fun j d => x3 (ix2 j d)) (fun j => x4 (ix1 j))) :=
    funext fun n => funext fun m => ref_L x0 x3 x4 x5 x6 β n m
  have hM : (fun n => val_main_v16 (F := Ideal) x0 x3 x4 x5 x6 (ix2 β n))
      = Cert.Spec.rowMax (fun n m => val_main_v15 (F := Ideal) x0 x3 x4 x5 x6 (ix3 β n m)) :=
    funext fun n => ref_M x0 x3 x4 x5 x6 β n
  rw [hM, hV, hL]

end Cert.ReferenceIdeal.RefValue

end
-- ==== Proof.RefArray.lean ====
/-
  The reference's result as one array: the layer on the whole batch.

  Read at the index (β, n, e) the reference's result is the attention layer applied to block β of the input
  (`ref_attn`). Every index of a [32, 1024, 256] array is such a triple, so the result array is the array
  `Cert.Spec.attnArray` of the nine arguments.
-/
import proofs.«153976_j9517647527942_1_alg».proof.Proof.RefValue
import proofs.«153976_j9517647527942_1_alg».proof.Proof.SpecArray

noncomputable section

namespace Cert.ReferenceIdeal.RefValue

open Cert.ReferenceIdeal Cert.ReferenceIdeal.Gen Cert.ReferenceIdeal.Read Idealize.ShloMosaic Idealize.ShloMosaic.ValueIdx

/-- The reference's last stage, as a function of the nine arguments, is the layer on the whole batch: the two
    arrays agree at every index, written by its three coordinates. -/
theorem ref_array (x0 : (⟨S32x1024x256, .f32⟩ : BufTy).Contents (Elt Ideal)) (x1 : (⟨S512x256, .f32⟩ : BufTy).Contents (Elt Ideal))
    (x2 : (⟨S512, .f32⟩ : BufTy).Contents (Elt Ideal)) (x3 : (⟨S512x256, .f32⟩ : BufTy).Contents (Elt Ideal))
    (x4 : (⟨S512, .f32⟩ : BufTy).Contents (Elt Ideal)) (x5 : (⟨S512x256, .f32⟩ : BufTy).Contents (Elt Ideal))
    (x6 : (⟨S512, .f32⟩ : BufTy).Contents (Elt Ideal)) (x7 : (⟨S256x512, .f32⟩ : BufTy).Contents (Elt Ideal))
    (x8 : (⟨S256, .f32⟩ : BufTy).Contents (Elt Ideal)) :
    val_main_v32 (F := Ideal) x0 x1 x2 x3 x4 x5 x6 x7 x8 = Cert.Spec.attnArray x0 x1 x2 x3 x4 x5 x6 x7 x8 := by
  funext i
  obtain ⟨β, n, e, rfl⟩ : ∃ (β : Fin 32) (n : Fin 1024) (e : Fin 256), i = ix3 β n e := ⟨i 0, i 1, i 2, eq_ix3 i⟩
  rw [Cert.Spec.attnArray_ix3]
  exact ref_attn x0 x1 x2 x3 x4 x5 x6 x7 x8 β n e

end Cert.ReferenceIdeal.RefValue

end
-- ==== Proof.lean ====
/-
  A single-head attention layer with rectified projections: the kernel against its reference.

  Inputs: h [32, 1024, 256] (32 independent blocks of 1024 token rows), three projection weights Wv, Wk, Wq
  [512, 256] with biases [512], an output weight Wo [256, 512] with bias [256]. For each block x of h,
      V = max (x Wvᵀ + bv, 0),  K = max (x Wkᵀ + bk, 0),  Q = max (x Wqᵀ + bq, 0),
      L = Q Kᵀ,   A = softmax of every row of L (the row's maximum subtracted before the exponential),
      out = max ((A V) Woᵀ + bo, 0).
  The kernel runs a grid of 32 points, one block each, with the weights staged whole at every point, and rounds
  its matrix operands to a narrower format; the reference applies the same operations to the whole batch with
  batched products. On the extended reals a change of format is the identity, the kernel's products into a zero
  accumulator and the reference's products are the same finite sums, and the two row reductions (a maximum from
  −∞, a sum from 0) are the same folds; so both programs compute, entry by entry, the one function
  `Cert.Spec.attnArray` of the nine arguments (Proof/Spec.lean, Proof/SpecArray.lean). No algebraic law beyond
  that is needed, and in particular finiteness of the inputs is never used.

  The kernel's side: Proof/KernelScores.lean and Proof/KernelTail.lean read the body's stored value entry by
  entry; Proof/KernelValue.lean carries it through the windows' blocks to the whole result array. The reference's
  side: Proof/RefValue.lean reads the reference's operations entry by entry, Proof/RefArray.lean states the result
  as one array. Here the two runs are set side by side. The three frame claims are the generated frame of each
  kernel program and the reference's generated run; the idealization rewrote nothing, so `preserves` is trivial.
-/
import proofs.«153976_j9517647527942_1_alg».proof.Defs
import proofs.«153976_j9517647527942_1_alg».proof.Proof.Gen.Kernel
import proofs.«153976_j9517647527942_1_alg».proof.Proof.Gen.Kernel.Skeleton
import proofs.«153976_j9517647527942_1_alg».proof.Proof.Gen.Kernel.Launch
import proofs.«153976_j9517647527942_1_alg».proof.Proof.Gen.Kernel.Points
import proofs.«153976_j9517647527942_1_alg».proof.Proof.Gen.Kernel.Frame
import proofs.«153976_j9517647527942_1_alg».proof.Proof.Gen.KernelIdeal
import proofs.«153976_j9517647527942_1_alg».proof.Proof.Gen.KernelIdeal.Skeleton
import proofs.«153976_j9517647527942_1_alg».proof.Proof.Gen.KernelIdeal.Launch
import proofs.«153976_j9517647527942_1_alg».proof.Proof.Gen.KernelIdeal.Points
import proofs.«153976_j9517647527942_1_alg».proof.Proof.Gen.KernelIdeal.Frame
import proofs.«153976_j9517647527942_1_alg».proof.Proof.Gen.ReferenceIdeal
import proofs.«153976_j9517647527942_1_alg».proof.Proof.Gen.Pre_finite_inputs
import proofs.«153976_j9517647527942_1_alg».proof.Proof.Gen.KernelIdeal.Value
import proofs.«153976_j9517647527942_1_alg».proof.Proof.Gen.ReferenceIdeal.Run
import proofs.«153976_j9517647527942_1_alg».proof.Proof.Gen.ReferenceIdeal.Read
import proofs.«153976_j9517647527942_1_alg».proof.Proof.KernelValue
import proofs.«153976_j9517647527942_1_alg».proof.Proof.RefArray
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals, from memories that agree on the nine arguments, the kernel's result array and the
    reference's are the same array: the attention layer on the whole batch, of those arguments. -/
theorem algebraic : Cert.algebraic_KernelIdeal_ReferenceIdeal := by
  intro m ρ m' ρ' _ hagree
  refine ⟨fun c => Cert.KernelIdeal.Whole.resultArr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v32_eq, Cert.ReferenceIdeal.RefValue.ref_array, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
